-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v88)) (v1 : (c : Dev Cert.KernelIdeal.nD) → Buf (Elt Ideal) ((c.tc : Thread Cert.KernelIdeal.nD Cert.KernelIdeal.τ).loc Cert.KernelIdeal.main_v177)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_v177) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v177) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S256x128 .f32) (main_arg7 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x256 .f32) (main_arg1 : IVec S2x800000 32) (main_arg2 : FVec F S50000x256 .f32) (main_arg3 : IVec S2x800000 32) (main_arg4 : FVec F S256x256 .f32) (main_arg5 : FVec F S256 .f32) (main_arg6 : FVec F S256x128 .f32) (main_arg7 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S50000x256 .f32 := Host.absf main_arg2
  let main_cst_0 : FVec F S_ .f32 := constant S_ .f32 0x7F800000#32
  let main_v5 : FVec F S50000x256 .f32 := broadcastInDim S50000x256 ![] bcast_S_S50000x256 main_cst_0
  let main_v6 : IVec S50000x256 1 := cmpf .olt main_v4 main_v5
  let main_c_1 : IVec S_ 1 := constantI S_ 1 1#1
  let main_v7 : IVec S_ 1 := (fun x v => Host.reduce IntOp.andi x v reducesTo_S50000x256_S_d0_1 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S5000x256 : Shape := ⟨2, ![5000, 256]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x128 : Shape := ⟨2, ![50000, 128]⟩
abbrev S5000x128 : Shape := ⟨2, ![5000, 128]⟩
abbrev S850000x128 : Shape := ⟨2, ![850000, 128]⟩
abbrev S1x128 : Shape := ⟨2, ![1, 128]⟩

abbrev nBuf : Space → Nat
  | .hbm => 230
  | .vmem => 20
  | .smem => 0
  | _ => 0

abbrev hbmTy0_0 (i : Nat) : BufTy := match i % 128 with
  | 0 => ⟨S50000x256, .f32⟩
  | 1 => ⟨S2x800000, .i32⟩
  | 2 => ⟨S50000x256, .f32⟩
  | 3 => ⟨S2x800000, .i32⟩
  | 4 => ⟨S256x256, .f32⟩
  | 5 => ⟨S256, .f32⟩
  | 6 => ⟨S256x128, .f32⟩
  | 7 => ⟨S128, .f32⟩
  | 8 => ⟨S1x800000, .i32⟩
  | 9 => ⟨S800000, .i32⟩
  | 10 => ⟨S1x800000, .i32⟩
  | 11 => ⟨S800000, .i32⟩
  | 12 => ⟨S50000x256, .f32⟩
  | 13 => ⟨S50000, .i32⟩
  | 14 => ⟨S850000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .f32⟩
  | 25 => ⟨S50000, .f32⟩
  | 26 => ⟨S_, .i32⟩
  | 27 => ⟨S850000, .i32⟩
  | 28 => ⟨S850000, .i1⟩
  | 29 => ⟨S_, .i32⟩
  | 30 => ⟨S850000, .i32⟩
  | 31 => ⟨S850000, .i32⟩
  | 32 => ⟨S850000, .i32⟩
  | 33 => ⟨S850000x1, .i32⟩
  | 34 => ⟨S850000, .f32⟩
  | 35 => ⟨S_, .i32⟩
  | 36 => ⟨S850000, .i32⟩
  | 37 => ⟨S850000, .i1⟩
  | 38 => ⟨S_, .i32⟩
  | 39 => ⟨S850000, .i32⟩
  | 40 => ⟨S850000, .i32⟩
  | 41 => ⟨S850000, .i32⟩
  | 42 => ⟨S850000x1, .i32⟩
  | 43 => ⟨S850000, .f32⟩
  | 44 => ⟨S850000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000x256, .f32⟩
  | 54 => ⟨S850000x1, .f32⟩
  | 55 => ⟨S850000x256, .f32⟩
  | 56 => ⟨S850000x256, .f32⟩
  | 57 => ⟨S_, .f32⟩
  | 58 => ⟨S50000x256, .f32⟩
  | 59 => ⟨S850000x1, .i32⟩
  | 60 => ⟨S50000x256, .f32⟩
  | 61 => ⟨S1x256, .f32⟩
  | 62 => ⟨S50000x256, .f32⟩
  | 63 => ⟨S50000x256, .f32⟩
  | 64 => ⟨S_, .f32⟩
  | 65 => ⟨S50000x256, .f32⟩
  | 66 => ⟨S50000x256, .f32⟩
  | 67 => ⟨S50000x128, .f32⟩
  | 68 => ⟨S50000, .i32⟩
  | 69 => ⟨S850000, .i32⟩
  | 70 => ⟨S850000, .i32⟩
  | 71 => ⟨S_, .f32⟩
  | 72 => ⟨S850000, .f32⟩
  | 73 => ⟨S_, .f32⟩
  | 74 => ⟨S50000, .f32⟩
  | 75 => ⟨S850000x1, .i32⟩
  | 76 => ⟨S50000, .f32⟩
  | 77 => ⟨S_, .f32⟩
  | 78 => ⟨S50000, .f32⟩
  | 79 => ⟨S50000, .f32⟩
  | 80 => ⟨S50000, .f32⟩
  | 81 => ⟨S_, .i32⟩
  | 82 => ⟨S850000, .i32⟩
  | 83 => ⟨S850000, .i1⟩
  | 84 => ⟨S_, .i32⟩
  | 85 => ⟨S850000, .i32⟩
  | 86 => ⟨S850000, .i32⟩
  | 87 => ⟨S850000, .i32⟩
  | 88 => ⟨S850000x1, .i32⟩
  | 89 => ⟨S850000, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000, .f32⟩
  | 99 => ⟨S850000, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000x128, .f32⟩
  | 109 => ⟨S850000x1, .f32⟩
  | 110 => ⟨S850000x128, .f32⟩
  | 111 => ⟨S850000x128, .f32⟩
  | 112 => ⟨S_, .f32⟩
  | 113 => ⟨S50000x128, .f32⟩
  | 114 => ⟨S850000x1, .i32⟩
  | 115 => ⟨S50000x128, .f32⟩
  | 116 => ⟨S1x128, .f32⟩
  | 117 => ⟨S50000x128, .f32⟩
  | 118 => ⟨S50000x128, .f32⟩
  | 119 => ⟨S1x800000, .i32⟩
  | 120 => ⟨S800000, .i32⟩
  | 121 => ⟨S1x800000, .i32⟩
  | 122 => ⟨S800000, .i32⟩
  | 123 => ⟨S50000x256, .f32⟩
  | 124 => ⟨S50000, .i32⟩
  | 125 => ⟨S850000, .i32⟩
  | 126 => ⟨S850000, .i32⟩
  | 127 => ⟨S_, .f32⟩
  | _ => ⟨S50000x256, .f32⟩

abbrev hbmTy0_1 (i : Nat) : BufTy := match i % 128 with
  | 0 => ⟨S850000, .f32⟩
  | 1 => ⟨S_, .f32⟩
  | 2 => ⟨S50000, .f32⟩
  | 3 => ⟨S850000x1, .i32⟩
  | 4 => ⟨S50000, .f32⟩
  | 5 => ⟨S_, .f32⟩
  | 6 => ⟨S50000, .f32⟩
  | 7 => ⟨S50000, .f32⟩
  | 8 => ⟨S50000, .f32⟩
  | 9 => ⟨S_, .i32⟩
  | 10 => ⟨S850000, .i32⟩
  | 11 => ⟨S850000, .i1⟩
  | 12 => ⟨S_, .i32⟩
  | 13 => ⟨S850000, .i32⟩
  | 14 => ⟨S850000, .i32⟩
  | 15 => ⟨S850000, .i32⟩
  | 16 => ⟨S850000x1, .i32⟩
  | 17 => ⟨S850000, .f32⟩
  | 18 => ⟨S_, .i32⟩
  | 19 => ⟨S850000, .i32⟩
  | 20 => ⟨S850000, .i1⟩
  | 21 => ⟨S_, .i32⟩
  | 22 => ⟨S850000, .i32⟩
  | 23 => ⟨S850000, .i32⟩
  | 24 => ⟨S850000, .i32⟩
  | 25 => ⟨S850000x1, .i32⟩
  | 26 => ⟨S850000, .f32⟩
  | 27 => ⟨S850000, .f32⟩
  | 28 => ⟨S_, .i32⟩
  | 29 => ⟨S850000, .i32⟩
  | 30 => ⟨S850000, .i1⟩
  | 31 => ⟨S_, .i32⟩
  | 32 => ⟨S850000, .i32⟩
  | 33 => ⟨S850000, .i32⟩
  | 34 => ⟨S850000, .i32⟩
  | 35 => ⟨S850000x1, .i32⟩
  | 36 => ⟨S850000x256, .f32⟩
  | 37 => ⟨S850000x1, .f32⟩
  | 38 => ⟨S850000x256, .f32⟩
  | 39 => ⟨S850000x256, .f32⟩
  | 40 => ⟨S_, .f32⟩
  | 41 => ⟨S50000x256, .f32⟩
  | 42 => ⟨S850000x1, .i32⟩
  | 43 => ⟨S50000x256, .f32⟩
  | 44 => ⟨S1x256, .f32⟩
  | 45 => ⟨S50000x256, .f32⟩
  | 46 => ⟨S50000x256, .f32⟩
  | 47 => ⟨S_, .f32⟩
  | 48 => ⟨S50000x256, .f32⟩
  | 49 => ⟨S50000x256, .f32⟩
  | 50 => ⟨S50000x128, .f32⟩
  | 51 => ⟨S50000, .i32⟩
  | 52 => ⟨S850000, .i32⟩
  | 53 => ⟨S850000, .i32⟩
  | 54 => ⟨S_, .f32⟩
  | 55 => ⟨S850000, .f32⟩
  | 56 => ⟨S_, .f32⟩
  | 57 => ⟨S50000, .f32⟩
  | 58 => ⟨S850000x1, .i32⟩
  | 59 => ⟨S50000, .f32⟩
  | 60 => ⟨S_, .f32⟩
  | 61 => ⟨S50000, .f32⟩
  | 62 => ⟨S50000, .f32⟩
  | 63 => ⟨S50000, .f32⟩
  | 64 => ⟨S_, .i32⟩
  | 65 => ⟨S850000, .i32⟩
  | 66 => ⟨S850000, .i1⟩
  | 67 => ⟨S_, .i32⟩
  | 68 => ⟨S850000, .i32⟩
  | 69 => ⟨S850000, .i32⟩
  | 70 => ⟨S850000, .i32⟩
  | 71 => ⟨S850000x1, .i32⟩
  | 72 => ⟨S850000, .f32⟩
  | 73 => ⟨S_, .i32⟩
  | 74 => ⟨S850000, .i32⟩
  | 75 => ⟨S850000, .i1⟩
  | 76 => ⟨S_, .i32⟩
  | 77 => ⟨S850000, .i32⟩
  | 78 => ⟨S850000, .i32⟩
  | 79 => ⟨S850000, .i32⟩
  | 80 => ⟨S850000x1, .i32⟩
  | 81 => ⟨S850000, .f32⟩
  | 82 => ⟨S850000, .f32⟩
  | 83 => ⟨S_, .i32⟩
  | 84 => ⟨S850000, .i32⟩
  | 85 => ⟨S850000, .i1⟩
  | 86 => ⟨S_, .i32⟩
  | 87 => ⟨S850000, .i32⟩
  | 88 => ⟨S850000, .i32⟩
  | 89 => ⟨S850000, .i32⟩
  | 90 => ⟨S850000x1, .i32⟩
  | 91 => ⟨S850000x128, .f32⟩
  | 92 => ⟨S850000x1, .f32⟩
  | 93 => ⟨S850000x128, .f32⟩
  | 94 => ⟨S850000x128, .f32⟩
  | 95 => ⟨S_, .f32⟩
  | 96 => ⟨S50000x128, .f32⟩
  | 97 => ⟨S850000x1, .i32⟩
  | 98 => ⟨S50000x128, .f32⟩
  | 99 => ⟨S1x128, .f32⟩
  | 100 => ⟨S50000x128, .f32⟩
  | 101 => ⟨S50000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S256x128, .f32⟩
  | .local _ .vmem, ⟨8, _⟩ => ⟨S5000x128, .f32⟩
  | .local _ .vmem, ⟨9, _⟩ => ⟨S5000x128, .f32⟩
  | .local _ .vmem, ⟨10, _⟩ => ⟨S5000x256, .f32⟩
  | .local _ .vmem, ⟨11, _⟩ => ⟨S5000x256, .f32⟩
  | .local _ .vmem, ⟨12, _⟩ => ⟨S256x256, .f32⟩
  | .local _ .vmem, ⟨13, _⟩ => ⟨S5000x256, .f32⟩
  | .local _ .vmem, ⟨14, _⟩ => ⟨S5000x256, .f32⟩
  | .local _ .vmem, ⟨15, _⟩ => ⟨S5000x256, .f32⟩
  | .local _ .vmem, ⟨16, _⟩ => ⟨S5000x256, .f32⟩
  | .local _ .vmem, ⟨17, _⟩ => ⟨S256x128, .f32⟩
  | .local _ .vmem, ⟨18, _⟩ => ⟨S5000x128, .f32⟩
  | .local _ .vmem, ⟨19, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call1_cst : Ref sig .tc := ⟨.hbm, 64, rfl⟩
abbrev main_call1_v0 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_8 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_11 : Ref sig .tc := ⟨.hbm, 81, rfl⟩
abbrev main_v58 : Ref sig .tc := ⟨.hbm, 82, rfl⟩
abbrev main_v59 : Ref sig .tc := ⟨.hbm, 83, rfl⟩
abbrev main_c_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_c_14 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_c_15 : Ref sig .tc := ⟨.hbm, 100, rfl⟩
abbrev main_v73 : Ref sig .tc := ⟨.hbm, 101, rfl⟩
abbrev main_v74 : Ref sig .tc := ⟨.hbm, 102, rfl⟩
abbrev main_c_16 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_17 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_18 : Ref sig .tc := ⟨.hbm, 127, rfl⟩
abbrev main_v97 : Ref sig .tc := ⟨.hbm, 128, rfl⟩
abbrev main_cst_19 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_cst_20 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_c_21 : Ref sig .tc := ⟨.hbm, 137, rfl⟩
abbrev main_v104 : Ref sig .tc := ⟨.hbm, 138, rfl⟩
abbrev main_v105 : Ref sig .tc := ⟨.hbm, 139, rfl⟩
abbrev main_c_22 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_c_23 : Ref sig .tc := ⟨.hbm, 146, rfl⟩
abbrev main_v111 : Ref sig .tc := ⟨.hbm, 147, rfl⟩
abbrev main_v112 : Ref sig .tc := ⟨.hbm, 148, rfl⟩
abbrev main_c_24 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_c_25 : Ref sig .tc := ⟨.hbm, 156, rfl⟩
abbrev main_v119 : Ref sig .tc := ⟨.hbm, 157, rfl⟩
abbrev main_v120 : Ref sig .tc := ⟨.hbm, 158, rfl⟩
abbrev main_c_26 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_cst_27 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_call4_cst : Ref sig .tc := ⟨.hbm, 175, rfl⟩
abbrev main_call4_v0 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_cst_28 : Ref sig .tc := ⟨.hbm, 182, rfl⟩
abbrev main_v140 : Ref sig .tc := ⟨.hbm, 183, rfl⟩
abbrev main_cst_29 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_cst_30 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_c_31 : Ref sig .tc := ⟨.hbm, 192, rfl⟩
abbrev main_v147 : Ref sig .tc := ⟨.hbm, 193, rfl⟩
abbrev main_v148 : Ref sig .tc := ⟨.hbm, 194, rfl⟩
abbrev main_c_32 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_c_33 : Ref sig .tc := ⟨.hbm, 201, rfl⟩
abbrev main_v154 : Ref sig .tc := ⟨.hbm, 202, rfl⟩
abbrev main_v155 : Ref sig .tc := ⟨.hbm, 203, rfl⟩
abbrev main_c_34 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_c_35 : Ref sig .tc := ⟨.hbm, 211, rfl⟩
abbrev main_v162 : Ref sig .tc := ⟨.hbm, 212, rfl⟩
abbrev main_v163 : Ref sig .tc := ⟨.hbm, 213, rfl⟩
abbrev main_c_36 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_cst_37 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S5000x256_S256x256_S5000x256_1_0_0_1_n_n_wf : DotDims.WF S5000x256 S256x256 S5000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x256.size a ≤ S50000x256.size a
  hwx2_2 : ∀ i : grid2.Coords, EltTy.bits .f32 = 32 ∨ (Rect.block (s := S50000x256) S5000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x128.size a ≤ S256x128.size a
  hwx3_1 : ∀ i : grid3.Coords, EltTy.bits .f32 = 32 ∨ (Rect.block (s := S256x128) S256x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)

variable [Facts₀]

def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg2) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v93) S5000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v135) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S256x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v136) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x128 : Shape := ⟨2, ![50000, 128]⟩
abbrev S850000x128 : Shape := ⟨2, ![850000, 128]⟩
abbrev S1x128 : Shape := ⟨2, ![1, 128]⟩

abbrev nBuf : Space → Nat
  | .hbm => 230
  | .vmem => 0
  | .smem => 0
  | _ => 0

abbrev hbmTy0_0 (i : Nat) : BufTy := match i % 128 with
  | 0 => ⟨S50000x256, .f32⟩
  | 1 => ⟨S2x800000, .i32⟩
  | 2 => ⟨S50000x256, .f32⟩
  | 3 => ⟨S2x800000, .i32⟩
  | 4 => ⟨S256x256, .f32⟩
  | 5 => ⟨S256, .f32⟩
  | 6 => ⟨S256x128, .f32⟩
  | 7 => ⟨S128, .f32⟩
  | 8 => ⟨S1x800000, .i32⟩
  | 9 => ⟨S800000, .i32⟩
  | 10 => ⟨S1x800000, .i32⟩
  | 11 => ⟨S800000, .i32⟩
  | 12 => ⟨S50000x256, .f32⟩
  | 13 => ⟨S50000, .i32⟩
  | 14 => ⟨S850000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .f32⟩
  | 25 => ⟨S50000, .f32⟩
  | 26 => ⟨S_, .i32⟩
  | 27 => ⟨S850000, .i32⟩
  | 28 => ⟨S850000, .i1⟩
  | 29 => ⟨S_, .i32⟩
  | 30 => ⟨S850000, .i32⟩
  | 31 => ⟨S850000, .i32⟩
  | 32 => ⟨S850000, .i32⟩
  | 33 => ⟨S850000x1, .i32⟩
  | 34 => ⟨S850000, .f32⟩
  | 35 => ⟨S_, .i32⟩
  | 36 => ⟨S850000, .i32⟩
  | 37 => ⟨S850000, .i1⟩
  | 38 => ⟨S_, .i32⟩
  | 39 => ⟨S850000, .i32⟩
  | 40 => ⟨S850000, .i32⟩
  | 41 => ⟨S850000, .i32⟩
  | 42 => ⟨S850000x1, .i32⟩
  | 43 => ⟨S850000, .f32⟩
  | 44 => ⟨S850000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000x256, .f32⟩
  | 54 => ⟨S850000x1, .f32⟩
  | 55 => ⟨S850000x256, .f32⟩
  | 56 => ⟨S850000x256, .f32⟩
  | 57 => ⟨S_, .f32⟩
  | 58 => ⟨S50000x256, .f32⟩
  | 59 => ⟨S850000x1, .i32⟩
  | 60 => ⟨S50000x256, .f32⟩
  | 61 => ⟨S1x256, .f32⟩
  | 62 => ⟨S50000x256, .f32⟩
  | 63 => ⟨S50000x256, .f32⟩
  | 64 => ⟨S_, .f32⟩
  | 65 => ⟨S50000x256, .f32⟩
  | 66 => ⟨S50000x256, .f32⟩
  | 67 => ⟨S50000x128, .f32⟩
  | 68 => ⟨S50000, .i32⟩
  | 69 => ⟨S850000, .i32⟩
  | 70 => ⟨S850000, .i32⟩
  | 71 => ⟨S_, .f32⟩
  | 72 => ⟨S850000, .f32⟩
  | 73 => ⟨S_, .f32⟩
  | 74 => ⟨S50000, .f32⟩
  | 75 => ⟨S850000x1, .i32⟩
  | 76 => ⟨S50000, .f32⟩
  | 77 => ⟨S_, .f32⟩
  | 78 => ⟨S50000, .f32⟩
  | 79 => ⟨S50000, .f32⟩
  | 80 => ⟨S50000, .f32⟩
  | 81 => ⟨S_, .i32⟩
  | 82 => ⟨S850000, .i32⟩
  | 83 => ⟨S850000, .i1⟩
  | 84 => ⟨S_, .i32⟩
  | 85 => ⟨S850000, .i32⟩
  | 86 => ⟨S850000, .i32⟩
  | 87 => ⟨S850000, .i32⟩
  | 88 => ⟨S850000x1, .i32⟩
  | 89 => ⟨S850000, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000, .f32⟩
  | 99 => ⟨S850000, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000x128, .f32⟩
  | 109 => ⟨S850000x1, .f32⟩
  | 110 => ⟨S850000x128, .f32⟩
  | 111 => ⟨S850000x128, .f32⟩
  | 112 => ⟨S_, .f32⟩
  | 113 => ⟨S50000x128, .f32⟩
  | 114 => ⟨S850000x1, .i32⟩
  | 115 => ⟨S50000x128, .f32⟩
  | 116 => ⟨S1x128, .f32⟩
  | 117 => ⟨S50000x128, .f32⟩
  | 118 => ⟨S50000x128, .f32⟩
  | 119 => ⟨S1x800000, .i32⟩
  | 120 => ⟨S800000, .i32⟩
  | 121 => ⟨S1x800000, .i32⟩
  | 122 => ⟨S800000, .i32⟩
  | 123 => ⟨S50000x256, .f32⟩
  | 124 => ⟨S50000, .i32⟩
  | 125 => ⟨S850000, .i32⟩
  | 126 => ⟨S850000, .i32⟩
  | 127 => ⟨S_, .f32⟩
  | _ => ⟨S50000x256, .f32⟩

abbrev hbmTy0_1 (i : Nat) : BufTy := match i % 128 with
  | 0 => ⟨S850000, .f32⟩
  | 1 => ⟨S_, .f32⟩
  | 2 => ⟨S50000, .f32⟩
  | 3 => ⟨S850000x1, .i32⟩
  | 4 => ⟨S50000, .f32⟩
  | 5 => ⟨S_, .f32⟩
  | 6 => ⟨S50000, .f32⟩
  | 7 => ⟨S50000, .f32⟩
  | 8 => ⟨S50000, .f32⟩
  | 9 => ⟨S_, .i32⟩
  | 10 => ⟨S850000, .i32⟩
  | 11 => ⟨S850000, .i1⟩
  | 12 => ⟨S_, .i32⟩
  | 13 => ⟨S850000, .i32⟩
  | 14 => ⟨S850000, .i32⟩
  | 15 => ⟨S850000, .i32⟩
  | 16 => ⟨S850000x1, .i32⟩
  | 17 => ⟨S850000, .f32⟩
  | 18 => ⟨S_, .i32⟩
  | 19 => ⟨S850000, .i32⟩
  | 20 => ⟨S850000, .i1⟩
  | 21 => ⟨S_, .i32⟩
  | 22 => ⟨S850000, .i32⟩
  | 23 => ⟨S850000, .i32⟩
  | 24 => ⟨S850000, .i32⟩
  | 25 => ⟨S850000x1, .i32⟩
  | 26 => ⟨S850000, .f32⟩
  | 27 => ⟨S850000, .f32⟩
  | 28 => ⟨S_, .i32⟩
  | 29 => ⟨S850000, .i32⟩
  | 30 => ⟨S850000, .i1⟩
  | 31 => ⟨S_, .i32⟩
  | 32 => ⟨S850000, .i32⟩
  | 33 => ⟨S850000, .i32⟩
  | 34 => ⟨S850000, .i32⟩
  | 35 => ⟨S850000x1, .i32⟩
  | 36 => ⟨S850000x256, .f32⟩
  | 37 => ⟨S850000x1, .f32⟩
  | 38 => ⟨S850000x256, .f32⟩
  | 39 => ⟨S850000x256, .f32⟩
  | 40 => ⟨S_, .f32⟩
  | 41 => ⟨S50000x256, .f32⟩
  | 42 => ⟨S850000x1, .i32⟩
  | 43 => ⟨S50000x256, .f32⟩
  | 44 => ⟨S1x256, .f32⟩
  | 45 => ⟨S50000x256, .f32⟩
  | 46 => ⟨S50000x256, .f32⟩
  | 47 => ⟨S_, .f32⟩
  | 48 => ⟨S50000x256, .f32⟩
  | 49 => ⟨S50000x256, .f32⟩
  | 50 => ⟨S50000x128, .f32⟩
  | 51 => ⟨S50000, .i32⟩
  | 52 => ⟨S850000, .i32⟩
  | 53 => ⟨S850000, .i32⟩
  | 54 => ⟨S_, .f32⟩
  | 55 => ⟨S850000, .f32⟩
  | 56 => ⟨S_, .f32⟩
  | 57 => ⟨S50000, .f32⟩
  | 58 => ⟨S850000x1, .i32⟩
  | 59 => ⟨S50000, .f32⟩
  | 60 => ⟨S_, .f32⟩
  | 61 => ⟨S50000, .f32⟩
  | 62 => ⟨S50000, .f32⟩
  | 63 => ⟨S50000, .f32⟩
  | 64 => ⟨S_, .i32⟩
  | 65 => ⟨S850000, .i32⟩
  | 66 => ⟨S850000, .i1⟩
  | 67 => ⟨S_, .i32⟩
  | 68 => ⟨S850000, .i32⟩
  | 69 => ⟨S850000, .i32⟩
  | 70 => ⟨S850000, .i32⟩
  | 71 => ⟨S850000x1, .i32⟩
  | 72 => ⟨S850000, .f32⟩
  | 73 => ⟨S_, .i32⟩
  | 74 => ⟨S850000, .i32⟩
  | 75 => ⟨S850000, .i1⟩
  | 76 => ⟨S_, .i32⟩
  | 77 => ⟨S850000, .i32⟩
  | 78 => ⟨S850000, .i32⟩
  | 79 => ⟨S850000, .i32⟩
  | 80 => ⟨S850000x1, .i32⟩
  | 81 => ⟨S850000, .f32⟩
  | 82 => ⟨S850000, .f32⟩
  | 83 => ⟨S_, .i32⟩
  | 84 => ⟨S850000, .i32⟩
  | 85 => ⟨S850000, .i1⟩
  | 86 => ⟨S_, .i32⟩
  | 87 => ⟨S850000, .i32⟩
  | 88 => ⟨S850000, .i32⟩
  | 89 => ⟨S850000, .i32⟩
  | 90 => ⟨S850000x1, .i32⟩
  | 91 => ⟨S850000x128, .f32⟩
  | 92 => ⟨S850000x1, .f32⟩
  | 93 => ⟨S850000x128, .f32⟩
  | 94 => ⟨S850000x128, .f32⟩
  | 95 => ⟨S_, .f32⟩
  | 96 => ⟨S50000x128, .f32⟩
  | 97 => ⟨S850000x1, .i32⟩
  | 98 => ⟨S50000x128, .f32⟩
  | 99 => ⟨S1x128, .f32⟩
  | 100 => ⟨S50000x128, .f32⟩
  | 101 => ⟨S50000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call0_cst : Ref sig .tc := ⟨.hbm, 64, rfl⟩
abbrev main_call0_v0 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_8 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_11 : Ref sig .tc := ⟨.hbm, 81, rfl⟩
abbrev main_v58 : Ref sig .tc := ⟨.hbm, 82, rfl⟩
abbrev main_v59 : Ref sig .tc := ⟨.hbm, 83, rfl⟩
abbrev main_c_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_c_14 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_c_15 : Ref sig .tc := ⟨.hbm, 100, rfl⟩
abbrev main_v73 : Ref sig .tc := ⟨.hbm, 101, rfl⟩
abbrev main_v74 : Ref sig .tc := ⟨.hbm, 102, rfl⟩
abbrev main_c_16 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_17 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_18 : Ref sig .tc := ⟨.hbm, 127, rfl⟩
abbrev main_v97 : Ref sig .tc := ⟨.hbm, 128, rfl⟩
abbrev main_cst_19 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_cst_20 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_c_21 : Ref sig .tc := ⟨.hbm, 137, rfl⟩
abbrev main_v104 : Ref sig .tc := ⟨.hbm, 138, rfl⟩
abbrev main_v105 : Ref sig .tc := ⟨.hbm, 139, rfl⟩
abbrev main_c_22 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_c_23 : Ref sig .tc := ⟨.hbm, 146, rfl⟩
abbrev main_v111 : Ref sig .tc := ⟨.hbm, 147, rfl⟩
abbrev main_v112 : Ref sig .tc := ⟨.hbm, 148, rfl⟩
abbrev main_c_24 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_c_25 : Ref sig .tc := ⟨.hbm, 156, rfl⟩
abbrev main_v119 : Ref sig .tc := ⟨.hbm, 157, rfl⟩
abbrev main_v120 : Ref sig .tc := ⟨.hbm, 158, rfl⟩
abbrev main_c_26 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_cst_27 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_call1_cst : Ref sig .tc := ⟨.hbm, 175, rfl⟩
abbrev main_call1_v0 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_cst_28 : Ref sig .tc := ⟨.hbm, 182, rfl⟩
abbrev main_v140 : Ref sig .tc := ⟨.hbm, 183, rfl⟩
abbrev main_cst_29 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_cst_30 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_c_31 : Ref sig .tc := ⟨.hbm, 192, rfl⟩
abbrev main_v147 : Ref sig .tc := ⟨.hbm, 193, rfl⟩
abbrev main_v148 : Ref sig .tc := ⟨.hbm, 194, rfl⟩
abbrev main_c_32 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_c_33 : Ref sig .tc := ⟨.hbm, 201, rfl⟩
abbrev main_v154 : Ref sig .tc := ⟨.hbm, 202, rfl⟩
abbrev main_v155 : Ref sig .tc := ⟨.hbm, 203, rfl⟩
abbrev main_c_34 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_c_35 : Ref sig .tc := ⟨.hbm, 211, rfl⟩
abbrev main_v162 : Ref sig .tc := ⟨.hbm, 212, rfl⟩
abbrev main_v163 : Ref sig .tc := ⟨.hbm, 213, rfl⟩
abbrev main_c_36 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_cst_37 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x256_S256x256_S50000x256_1_0_0_1_n_n_wf : DotDims.WF S50000x256 S256x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KernelRun.lean ====
/-
  The idealized kernel's run, with its two results named.

  The program is four matrix-product regions among stretches of host operations. Its run passes through twelve
  boundaries; the buffer contents at boundary `k` are `Gen.Wk`: a stretch applies its operations to the contents
  before it, a region replaces its three arrays by what its pipeline leaves in them. Every weakly fair execution
  ends with every unscoped buffer at the last boundary's contents `W11`. The frame keeps of this only that the
  eight arguments end as launched; here the same run is stated with two more facts, that the result buffers
  `main_v88` and `main_v177` end at `W11`'s contents for them. What those contents are is read elsewhere.
-/
import proofs.«144654_j85323820302368_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's program terminates without a fault; the two result buffers end at
    the last boundary's contents and the eight argument arrays end as launched. -/
theorem run_named : θ_run defs (onTc (τ := τ) (main (F := F))) ⟨m, fun _ => 0, ρ⟩ (fun r => ∀ c : Dev nD,
      r.2.mem ((c.tc : Thread nD τ).loc main_v88) = W11 m ρ c (Proc.devRef .tc main_v88)
      ∧ r.2.mem ((c.tc : Thread nD τ).loc main_v177) = W11 m ρ c (Proc.devRef .tc main_v177)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v88 (by decide)),
       h c _ (mem_uc main_v177 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.KernelIdeal.Named

end
-- ==== Proof.RegionSpec.lean ====
/-
  What each of the four matrix-product regions leaves in its output array, as a statement.

  Region `k` runs a grid of ten row blocks: at point `t` it multiplies rows `5000 t … 5000 t + 4999` of its left array
  by the whole of its right array and writes the product to the same rows of its output array. Taken together the ten
  write-backs leave in the output array the product of the whole left array by the right array: the host's
  `dot_general` with plain dimension numbers (left axis 1 against right axis 0). `RegionVals F` says exactly that of
  the four regions, for any contents `V` the region may be entered with; it holds where a change of float format is the
  identity and a matrix-unit product into a zero accumulator is the contraction sum (the extended reals), and it is all
  the reading of the run needs to know about the regions.
-/
import proofs.«144654_j85323820302368_1_alg».proof.Proof.Gen.KernelIdeal.Frame

noncomputable section

namespace Cert.KernelIdeal.Spec

open Cert.KernelIdeal Cert.KernelIdeal.Gen
open Idealize.ShloMosaic Idealize.ShloMosaic.TcCoe

/-- The whole product of a `50000×256` array by a `256×256` array. -/
abbrev mmHid {F : FTy → Type} [FloatOps F] (x : (⟨S50000x256, .f32⟩ : BufTy).Contents (Elt F)) (w : (⟨S256x256, .f32⟩ : BufTy).Contents (Elt F)) :
    (⟨S50000x256, .f32⟩ : BufTy).Contents (Elt F) :=
  Host.dotGeneral (DotDims.plain 50000 256 256) none x w

/-- The whole product of a `50000×256` array by a `256×128` array. -/
abbrev mmOut {F : FTy → Type} [FloatOps F] (x : (⟨S50000x256, .f32⟩ : BufTy).Contents (Elt F)) (w : (⟨S256x128, .f32⟩ : BufTy).Contents (Elt F)) :
    (⟨S50000x128, .f32⟩ : BufTy).Contents (Elt F) :=
  Host.dotGeneral (DotDims.plain 50000 256 128) none x w

/-- Each region's output array, after its ten write-backs, is the whole product of its two input arrays as the region
    found them. -/
structure RegionVals (F : FTy → Type) [FloatOps F] : Prop where
  r0 : ∀ (V : (c : Dev nD) → (b : Ref sig .tc) → Buf (Elt F) ((c : Thread nD τ).loc b)) (c : Dev nD),
    (dat0 (F := F) V c).arrAt 2 cfg0.N = mmHid (V c main_arg0) (V c main_arg4)
  r1 : ∀ (V : (c : Dev nD) → (b : Ref sig .tc) → Buf (Elt F) ((c : Thread nD τ).loc b)) (c : Dev nD),
    (dat1 (F := F) V c).arrAt 2 cfg1.N = mmOut (V c main_v46) (V c main_arg6)
  r2 : ∀ (V : (c : Dev nD) → (b : Ref sig .tc) → Buf (Elt F) ((c : Thread nD τ).loc b)) (c : Dev nD),
    (dat2 (F := F) V c).arrAt 2 cfg2.N = mmHid (V c main_arg2) (V c main_arg4)
  r3 : ∀ (V : (c : Dev nD) → (b : Ref sig .tc) → Buf (Elt F) ((c : Thread nD τ).loc b)) (c : Dev nD),
    (dat3 (F := F) V c).arrAt 2 cfg3.N = mmOut (V c main_v135) (V c main_arg6)

end Cert.KernelIdeal.Spec

end
-- ==== Proof.LibRegionOp.lean ====
/-
  A pipelined region with one output array, read as one more line of the host program around it.

  A region's exit contents are its entry contents with the pipeline's arrays replaced by what the pipeline leaves in
  them. When every array but one is left as the region found it, and that one holds the value a host operation
  writing only that array would have computed from the entry contents, the exit contents ARE that operation's
  result on the entry contents. A program of several regions among host lines then reads, buffer by buffer, as one
  straight line of operations.
-/
import Idealize.ShloMosaic.Lib.Pipeline.FrameSuffix

noncomputable section

namespace Cert.RegionOp

open Idealize.ShloMosaic Idealize.ShloMosaic.Pipeline Idealize.ShloMosaic.TcCoe

variable {nD : Nat} {τ : Topo} {sig : RefSig} {Val : EltTy → Type}

/-- The exit contents of a region whose arrays `A` agree with the entry contents `V` except at window `o`'s array,
    where they hold what `op` — an operation writing that array only — computes from `V`: they are `op.result V`,
    at every buffer of the device. -/
theorem withArrays_eq_result {gr W : Nat} (win : Fin W → WinSpec sig gr) (hinj : Function.Injective (arrRef win))
    (c : Dev nD) (V : Valuation τ sig Val) (A : (w : Fin W) → Buf Val ((win w).arr.view.loc (c.tc : Thread nD τ)))
    (o : Fin W) (op : HloOp τ sig Val)
    (hw : op.writes = {Proc.devRef .tc (arrRef win o)})
    (hin : ∀ w, w ≠ o → A w = V (Proc.devRef .tc (arrRef win w)))
    (hout : A o = op.result V (Proc.devRef .tc (arrRef win o))) :
    withArrays win c V A = op.result V := by
  funext b
  by_cases h : ∃ w, Proc.devRef .tc (arrRef win w) = b
  · obtain ⟨w, rfl⟩ := h
    rw [withArrays_arr win hinj c V A w]
    by_cases hwo : w = o
    · subst hwo; exact hout
    · rw [hin w hwo]
      refine (op.result_of_not_mem V ?_).symm
      rw [hw, Finset.mem_singleton]
      exact fun e => hwo (hinj (Proc.devRef_injective _ e))
  · have hb : withArrays win c V A b = V b := by unfold withArrays; rw [dif_neg h]
    rw [hb]
    refine (op.result_of_not_mem V ?_).symm
    rw [hw, Finset.mem_singleton]
    exact fun e => h ⟨o, e.symm⟩

end Cert.RegionOp

end
-- ==== Proof.Fold.lean ====
/-
  The kernel's run read as one straight line of host operations.

  A pipelined region replaces its arrays by what its pipeline leaves in them. Each of the four regions here leaves its
  two input arrays as it found them and, given `RegionVals F`, its output array at the whole product of the two: the
  value a two-operand host operation writing that one array would compute from the entry contents. So a region's exit
  contents are that operation's result on its entry contents (`W2_eq`, `W5_eq`, `W7_eq`, `W10_eq`), and the contents at
  the last boundary are the seven host stretches and the four product operations applied in order to the launch contents
  (`W11_chain`). That line is, operation for operation, the reference program's own line — the reference has the
  host's `dot_general` where the kernel has a region — so reading it back at a result buffer gives the reference's
  composed term of the arguments (`main_v88_eq`, `main_v177_eq`). Everything here holds for any float values `F`: no
  operation is opened.
-/
import proofs.«144654_j85323820302368_1_alg».proof.Proof.RegionSpec
import proofs.«144654_j85323820302368_1_alg».proof.Proof.LibRegionOp
import proofs.«144654_j85323820302368_1_alg».proof.Proof.Gen.ReferenceIdeal.Run
import Idealize.ShloMosaic.Lib.StableHlo.Run

set_option maxRecDepth 16384

noncomputable section

namespace Cert.KernelIdeal.Fold

open Cert.KernelIdeal Cert.KernelIdeal.Gen Cert.KernelIdeal.Spec
open Idealize.ShloMosaic Idealize.ShloMosaic.TcCoe Idealize.ShloMosaic.StableHlo Idealize.SL.Sem

variable {F : FTy → Type} [FloatOps F]

/-- Region 0 as one host operation: the whole product of `main_arg0` by `main_arg4`, written to `main_v4`. -/
abbrev rop0 : HloOp τ sig (Elt F) := binary main_arg0 main_arg4 main_v4 (mmHid (F := F))
/-- Region 1 as one host operation: the whole product of `main_v46` by `main_arg6`, written to `main_v47`. -/
abbrev rop1 : HloOp τ sig (Elt F) := binary main_v46 main_arg6 main_v47 (mmOut (F := F))
/-- Region 2 as one host operation: the whole product of `main_arg2` by `main_arg4`, written to `main_v93`. -/
abbrev rop2 : HloOp τ sig (Elt F) := binary main_arg2 main_arg4 main_v93 (mmHid (F := F))
/-- Region 3 as one host operation: the whole product of `main_v135` by `main_arg6`, written to `main_v136`. -/
abbrev rop3 : HloOp τ sig (Elt F) := binary main_v135 main_arg6 main_v136 (mmOut (F := F))

variable (m : (ℓ : Loc nD τ sig) → Buf (Elt F) ℓ) (ρ : Dev nD → PrngReg)

/-- Region 0's exit contents are its entry contents after that one operation. -/
theorem W2_eq (H : RegionVals F) (c : Dev nD) : W2 m ρ c = (rop0 (F := F)).result (W1 m ρ c) := by
  unfold W2
  refine Cert.RegionOp.withArrays_eq_result spec0 launch0.win.arr_inj c (W1 m ρ c) _ 2 rop0 rfl ?_ ?_
  · intro w hw
    fin_cases w
    · exact ((dat0 (V1 m ρ) c).arrAt_in 0 rfl _).trans (A_eq0 (V1 m ρ) c 0)
    · exact ((dat0 (V1 m ρ) c).arrAt_in 1 rfl _).trans (A_eq0 (V1 m ρ) c 1)
    · exact absurd rfl hw
  · exact (H.r0 (V1 m ρ) c).trans (binary_result' (a := main_arg0) (b := main_arg4) (y := main_v4) (mmHid (F := F)) _ _ _ (W1 m ρ c)).symm

/-- Region 1's exit contents are its entry contents after that one operation. -/
theorem W5_eq (H : RegionVals F) (c : Dev nD) : W5 m ρ c = (rop1 (F := F)).result (W4 m ρ c) := by
  unfold W5
  refine Cert.RegionOp.withArrays_eq_result spec1 launch1.win.arr_inj c (W4 m ρ c) _ 2 rop1 rfl ?_ ?_
  · intro w hw
    fin_cases w
    · exact ((dat1 (V4 m ρ) c).arrAt_in 0 rfl _).trans (A_eq1 (V4 m ρ) c 0)
    · exact ((dat1 (V4 m ρ) c).arrAt_in 1 rfl _).trans (A_eq1 (V4 m ρ) c 1)
    · exact absurd rfl hw
  · exact (H.r1 (V4 m ρ) c).trans (binary_result' (a := main_v46) (b := main_arg6) (y := main_v47) (mmOut (F := F)) _ _ _ (W4 m ρ c)).symm

/-- Region 2's exit contents are its entry contents after that one operation. -/
theorem W7_eq (H : RegionVals F) (c : Dev nD) : W7 m ρ c = (rop2 (F := F)).result (W6 m ρ c) := by
  unfold W7
  refine Cert.RegionOp.withArrays_eq_result spec2 launch2.win.arr_inj c (W6 m ρ c) _ 2 rop2 rfl ?_ ?_
  · intro w hw
    fin_cases w
    · exact ((dat2 (V6 m ρ) c).arrAt_in 0 rfl _).trans (A_eq2 (V6 m ρ) c 0)
    · exact ((dat2 (V6 m ρ) c).arrAt_in 1 rfl _).trans (A_eq2 (V6 m ρ) c 1)
    · exact absurd rfl hw
  · exact (H.r2 (V6 m ρ) c).trans (binary_result' (a := main_arg2) (b := main_arg4) (y := main_v93) (mmHid (F := F)) _ _ _ (W6 m ρ c)).symm

/-- Region 3's exit contents are its entry contents after that one operation. -/
theorem W10_eq (H : RegionVals F) (c : Dev nD) : W10 m ρ c = (rop3 (F := F)).result (W9 m ρ c) := by
  unfold W10
  refine Cert.RegionOp.withArrays_eq_result spec3 launch3.win.arr_inj c (W9 m ρ c) _ 2 rop3 rfl ?_ ?_
  · intro w hw
    fin_cases w
    · exact ((dat3 (V9 m ρ) c).arrAt_in 0 rfl _).trans (A_eq3 (V9 m ρ) c 0)
    · exact ((dat3 (V9 m ρ) c).arrAt_in 1 rfl _).trans (A_eq3 (V9 m ρ) c 1)
    · exact absurd rfl hw
  · exact (H.r3 (V9 m ρ) c).trans (binary_result' (a := main_v135) (b := main_arg6) (y := main_v136) (mmOut (F := F)) _ _ _ (W9 m ρ c)).symm

/-- The last boundary's contents as ONE straight line from the launch contents: the seven host stretches with the four
    regions' operations between them. -/
theorem W11_chain (H : RegionVals F) (c : Dev nD) :
    W11 m ρ c = after hostOps4 ((rop3 (F := F)).result (after hostOps3_1 (after hostOps3 ((rop2 (F := F)).result (after hostOps2 ((rop1 (F := F)).result (after hostOps1_1 (after hostOps1 ((rop0 (F := F)).result (after hostOps0 (W0 m ρ c))))))))))) := by
  rw [← W2_eq m ρ H c, ← W5_eq m ρ H c, ← W7_eq m ρ H c, ← W10_eq m ρ H c]

set_option maxHeartbeats 4000000 in
/-- The result buffer `main_v88` at the last boundary holds the reference's composed term of the launch contents of the
    arguments, when the two programs are launched on the same arguments. -/
theorem main_v88_eq (H : RegionVals F)
    (m' : (ℓ : Loc Cert.ReferenceIdeal.nD Cert.ReferenceIdeal.τ Cert.ReferenceIdeal.sig) → Buf (Elt F) ℓ)
    (hag : ∀ c : Dev nD,
      m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)) (c : Dev nD) :
    W11 m ρ c (Proc.devRef .tc main_v88) = Cert.ReferenceIdeal.Value.res_main_v88 m' c := by
  rw [W11_chain m ρ H c]
  simp (disch := decide) only [hostOps0, hostOps1, hostOps1_1, hostOps2, hostOps3, hostOps3_1, hostOps4, rop0, rop1, rop2, rop3,
    after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  unfold Cert.ReferenceIdeal.Value.res_main_v88
  obtain ⟨h0, h1, h2, h3, h4, h5, h6, h7⟩ := hag c
  rw [h0, h1, h4, h5, h6, h7]
  rfl

set_option maxHeartbeats 4000000 in
/-- The result buffer `main_v177` at the last boundary holds the reference's composed term of the launch contents of the
    arguments, when the two programs are launched on the same arguments. -/
theorem main_v177_eq (H : RegionVals F)
    (m' : (ℓ : Loc Cert.ReferenceIdeal.nD Cert.ReferenceIdeal.τ Cert.ReferenceIdeal.sig) → Buf (Elt F) ℓ)
    (hag : ∀ c : Dev nD,
      m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)) (c : Dev nD) :
    W11 m ρ c (Proc.devRef .tc main_v177) = Cert.ReferenceIdeal.Value.res_main_v177 m' c := by
  rw [W11_chain m ρ H c]
  simp (disch := decide) only [hostOps0, hostOps1, hostOps1_1, hostOps2, hostOps3, hostOps3_1, hostOps4, rop0, rop1, rop2, rop3,
    after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  unfold Cert.ReferenceIdeal.Value.res_main_v177
  obtain ⟨h0, h1, h2, h3, h4, h5, h6, h7⟩ := hag c
  rw [h2, h3, h4, h5, h6, h7]
  rfl

end Cert.KernelIdeal.Fold

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.BlocksLemma.lean ====
/-
  A row block of a matrix product is the matching rows of the whole product.

  Take an `m×K` block `xb` cut from an `M×K` array `X`, and a `K×N` array. The entry of the block product at
  `(r, c)` is the sum over `k` of `xb (r, k) * wb (k, c)`: it reads one row of the block and one column of the right
  factor, nothing else. If that row of the block is row `R` of `X`, and the right factor's column is the whole array's,
  the sum is term by term the one that defines the entry `(R, c)` of the whole product. On the extended reals a
  matrix-unit product into a zero accumulator and the host's `dot_general` are both that contraction sum, so the two
  entries are equal; the formats the operands were narrowed to play no part there.
-/
import proofs.«144654_j85323820302368_1_alg».proof.Proof.LibPlainDot

noncomputable section

namespace Cert.KernelIdeal.Blocks

open Idealize.ShloMosaic Idealize.ShloMosaic.ValueIdx

/-- The entry `j` of an `m×K` by `K×N` matrix-unit product into the zero accumulator is the entry `i` of the host's
    `M×K` by `K×N` product, as soon as row `j 0` of the small left factor is row `i 0` of the large one and column
    `j 1` of the one right factor is column `i 1` of the other. -/
theorem blockProduct_entry (m M K N : Nat) {φ₁ φ₂ ψ₁ ψ₂ : FTy} (prec prec' : Option ContractPrecision) (sched : HostSchedule)
    (xb : FVec Ideal (⟨2, ![m, K]⟩ : Shape) φ₁) (wb : FVec Ideal (⟨2, ![K, N]⟩ : Shape) φ₂)
    (X : FVec Ideal (⟨2, ![M, K]⟩ : Shape) ψ₁) (Wa : FVec Ideal (⟨2, ![K, N]⟩ : Shape) ψ₂)
    (j : (⟨2, ![m, N]⟩ : Shape).Idx) (i : (⟨2, ![M, N]⟩ : Shape).Idx)
    (hx : ∀ k : Fin K, xb (ix2 (j 0) k) = X (ix2 (i 0) k))
    (hw : ∀ k : Fin K, wb (ix2 k (j 1)) = Wa (ix2 k (i 1))) :
    FloatOps.matmul (DotDims.plain m K N) prec xb wb (constant (⟨2, ![m, N]⟩ : Shape) .f32 0x00000000#32) j
      = FloatOps.dotGeneral (DotDims.plain M K N) prec' sched X Wa i := by
  rw [Cert.PlainDot.matmul_zero_apply m K N prec xb wb j, Cert.PlainDot.dotGeneral_apply M K N prec' sched X Wa i]
  exact Finset.sum_congr rfl fun k _ => by rw [hx k, hw k]

/-- The offsets of a rectangle that starts at the origin of a rank-2 shape, as the constant zero function: the form in
    which a load or a store through the whole of a staging buffer is recognised. -/
theorem zeroOffsets : (![0, 0] : Fin 2 → Nat) = fun _ => 0 := funext fun a => by fin_cases a <;> rfl

end Cert.KernelIdeal.Blocks

end
-- ==== Proof.Blocks0.lean ====
/-
  The first matrix-product region: from its ten row blocks to the whole product.

  The region multiplies a `50000×256` array by a `256×256` array, in ten grid points that walk down the rows, 5000 at a time.
  At point `t` the left window hands the body rows `5000 t … 5000 t + 4999` of the left array, the right window hands it
  the whole right array, and the body's one store leaves in the output block the product of the two.
  Entry `(r, c)` of that block product is the sum over `k` of (row `5000 t + r` of the left array at `k`) times (the
  right array at `(k, c)`), which is entry `(5000 t + r, c)` of the product of the whole arrays; and the output window
  writes the block back to exactly rows `5000 t … 5000 t + 4999`. So each write-back is a block of ONE function of the
  two input arrays, the whole product. Row `r` of the output lies in the block of point `r / 5000`, so the ten blocks
  cover the output array, which therefore ends holding the whole product.
-/
import proofs.«144654_j85323820302368_1_alg».proof.Proof.RegionSpec
import proofs.«144654_j85323820302368_1_alg».proof.Proof.BlocksLemma
import Idealize.ShloMosaic.Lib.Pipeline.Value

set_option maxRecDepth 16384

noncomputable section

namespace Cert.KernelIdeal.Blocks

open Cert.KernelIdeal Cert.KernelIdeal.Gen Cert.KernelIdeal.Spec
open Idealize.ShloMosaic Idealize.ShloMosaic.TcCoe Idealize.ShloMosaic.ValueIdx
open Idealize.ShloMosaic.Pipeline (Dat)

/-- The three index maps over the ten grid points: the left and the output window move down the rows with the point,
    block `t` at point `t`; the right window stays on its one block. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- An entry of the body's block product is an entry of the whole product: entry `j` of the payload of a left block
    `xb` and a right block `wb` is entry `i` of the product of the arrays `X` and `Wa`, once row `j 0` of `xb` is row
    `i 0` of `X` and column `j 1` of `wb` is column `i 1` of `Wa`. Narrowing to bf16 is the identity on the extended
    reals. -/
theorem payload0_entry (xb : Vec Ideal S5000x256 .f32) (wb : Vec Ideal S256x256 .f32)
    (X : (⟨S50000x256, .f32⟩ : BufTy).Contents (Elt Ideal)) (Wa : (⟨S256x256, .f32⟩ : BufTy).Contents (Elt Ideal))
    (j : S5000x256.Idx) (i : S50000x256.Idx)
    (hx : ∀ k : Fin 256, xb (ix2 (j 0) k) = X (ix2 (i 0) k))
    (hw : ∀ k : Fin 256, wb (ix2 k (j 1)) = Wa (ix2 k (i 1))) :
    k0_pay1 xb wb j = mmHid X Wa i :=
  blockProduct_entry 5000 50000 256 256 (φ₁ := .bf16) (φ₂ := .bf16) (ψ₁ := .f32) (ψ₂ := .f32) none none .single xb wb X Wa j i hx hw

variable (V : (c : Dev nD) → (b : Ref sig .tc) → Buf (Elt Ideal) ((c : Thread nD τ).loc b))

/-- Entry `x` of the left window's block at point `t` is the left array's entry on row `5000 t + x 0`, same column. -/
theorem leftBlock0 (c : Dev nD) (t : Fin cfg0.N) (x : S5000x256.Idx) (k : S50000x256.Idx)
    (hk0 : (k 0).val = 5000 * t.val + (x 0).val) (hk1 : (k 1).val = (x 1).val) :
    (iblk0 V c 0 t : Vec Ideal S5000x256 .f32) x = (V c main_arg0 : S50000x256.Idx → Elt Ideal .f32) k := by
  obtain ⟨e00, e01, -, -, -, -⟩ := blockIndex0 t
  unfold iblk0
  rw [View.read_apply]
  show V c main_arg0 _ = V c main_arg0 _
  congr 1
  funext a; apply Fin.ext
  match a with
  | ⟨0, _⟩ => show win0_0.index t 0 * 5000 + 1 * (x 0).val = (k 0).val; rw [e00, hk0]; omega
  | ⟨1, _⟩ => show win0_0.index t 1 * 256 + 1 * (x 1).val = (k 1).val; rw [e01, hk1]; omega

/-- The right window's block at any point is the whole right array. -/
theorem rightBlock0 (c : Dev nD) (t : Fin cfg0.N) (x : S256x256.Idx) (k : S256x256.Idx)
    (hk0 : (k 0).val = (x 0).val) (hk1 : (k 1).val = (x 1).val) :
    (iblk0 V c 1 t : Vec Ideal S256x256 .f32) x = (V c main_arg4 : S256x256.Idx → Elt Ideal .f32) k := by
  obtain ⟨-, -, e10, e11, -, -⟩ := blockIndex0 t
  unfold iblk0
  rw [View.read_apply]
  show V c main_arg4 _ = V c main_arg4 _
  congr 1
  funext a; apply Fin.ext
  match a with
  | ⟨0, _⟩ => show win0_1.index t 0 * 256 + 1 * (x 0).val = (k 0).val; rw [e10, hk0]; omega
  | ⟨1, _⟩ => show win0_1.index t 1 * 256 + 1 * (x 1).val = (k 1).val; rw [e11, hk1]; omega

/-- What point `t` writes back is block `t` of the whole product: the body's one store fills the output block with
    its payload, and entry `j` of the payload is the whole product's entry at the place the output window puts `j`,
    row `5000 t + j 0` and column `j 1`. -/
theorem flushed0_eq (c : Dev nD) (t : Fin cfg0.N) :
    (dat0 V c).flushed 2 t = ((cfg0.win 2).blk t).view.read (Elt Ideal) (mmHid (V c main_arg0) (V c main_arg4)) := by
  show (cfg0.win 2).cut (grid0.coords t) ((dat0 V c).after 2 t) = _
  rw [after0_2]
  unfold out0_2
  rw [View.canon_unit_zero zeroOffsets]
  simp only [View.ld_unit_zero (S := S5000x256) zeroOffsets, View.ld_unit_zero (S := S256x256) zeroOffsets]
  obtain ⟨-, -, -, -, e20, e21⟩ := blockIndex0 t
  funext j
  rw [View.read_apply]
  refine payload0_entry (iblk0 V c 0 t) (iblk0 V c 1 t) (V c main_arg0) (V c main_arg4)
    ((cfg0.win 2).xinj (grid0.coords t) j) (((cfg0.win 2).blk t).view.emb j) ?_ ?_
  · intro k
    refine leftBlock0 V c t _ _ ?_ rfl
    show win0_2.index t 0 * 5000 + 1 * (j 0).val = 5000 * t.val + (j 0).val
    rw [e20]; omega
  · intro k
    refine rightBlock0 V c t _ _ rfl ?_
    show win0_2.index t 1 * 256 + 1 * (j 1).val = (j 1).val
    rw [e21]; omega

/-- An index of the output array is in point `t`'s block iff each coordinate is in the block's range on its axis. -/
theorem mem_block0 (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v4).slice (win0_2.rect t)).set ↔ _
  rw [View.set_slice_whole, Rect.mem_set_unit]
  exact Iff.rfl

/-- The ten blocks cover the output array: row `r` is in the block of point `r / 5000`. -/
theorem cover0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ : ∃ t : Fin cfg0.N, t.val = (i 0).val / 5000 :=
    ⟨⟨(i 0).val / 5000, by have hN : cfg0.N = 10 := N_0; omega⟩, rfl⟩
  obtain ⟨-, -, -, -, e20, e21⟩ := blockIndex0 t
  refine ⟨t, flush0_2 t, ?_⟩
  rw [mem_block0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- After its ten write-backs the region's output array holds the product of the whole left array by the right
    array, as the region found them. -/
theorem region0 (c : Dev nD) : (dat0 V c).arrAt 2 cfg0.N = mmHid (V c main_arg0) (V c main_arg4) :=
  (dat0 V c).arrAt_eq_of_cover 2 _ (fun t _ => flushed0_eq V c t) cover0

end Cert.KernelIdeal.Blocks

end
-- ==== Proof.Blocks1.lean ====
/-
  The second matrix-product region: from its ten row blocks to the whole product.

  The region multiplies a `50000×256` array by a `256×128` array, in ten grid points that walk down the rows, 5000 at a time.
  At point `t` the left window hands the body rows `5000 t … 5000 t + 4999` of the left array, the right window hands it
  the whole right array, and the body's one store leaves in the output block the product of the two (the body first passes the left block through a shape cast to its own shape, which changes nothing).
  Entry `(r, c)` of that block product is the sum over `k` of (row `5000 t + r` of the left array at `k`) times (the
  right array at `(k, c)`), which is entry `(5000 t + r, c)` of the product of the whole arrays; and the output window
  writes the block back to exactly rows `5000 t … 5000 t + 4999`. So each write-back is a block of ONE function of the
  two input arrays, the whole product. Row `r` of the output lies in the block of point `r / 5000`, so the ten blocks
  cover the output array, which therefore ends holding the whole product.
-/
import proofs.«144654_j85323820302368_1_alg».proof.Proof.RegionSpec
import proofs.«144654_j85323820302368_1_alg».proof.Proof.BlocksLemma
import Idealize.ShloMosaic.Lib.Pipeline.Value

set_option maxRecDepth 16384

noncomputable section

namespace Cert.KernelIdeal.Blocks

open Cert.KernelIdeal Cert.KernelIdeal.Gen Cert.KernelIdeal.Spec
open Idealize.ShloMosaic Idealize.ShloMosaic.TcCoe Idealize.ShloMosaic.ValueIdx
open Idealize.ShloMosaic.Pipeline (Dat)

/-- The three index maps over the ten grid points: the left and the output window move down the rows with the point,
    block `t` at point `t`; the right window stays on its one block. -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- An entry of the body's block product is an entry of the whole product: entry `j` of the payload of a left block
    `xb` and a right block `wb` is entry `i` of the product of the arrays `X` and `Wa`, once row `j 0` of `xb` is row
    `i 0` of `X` and column `j 1` of `wb` is column `i 1` of `Wa`. Narrowing to bf16 is the identity on the extended
    reals, and so is a shape cast to the same shape. -/
theorem payload1_entry (xb : Vec Ideal S5000x256 .f32) (wb : Vec Ideal S256x128 .f32)
    (X : (⟨S50000x256, .f32⟩ : BufTy).Contents (Elt Ideal)) (Wa : (⟨S256x128, .f32⟩ : BufTy).Contents (Elt Ideal))
    (j : S5000x128.Idx) (i : S50000x128.Idx)
    (hx : ∀ k : Fin 256, xb (ix2 (j 0) k) = X (ix2 (i 0) k))
    (hw : ∀ k : Fin 256, wb (ix2 k (j 1)) = Wa (ix2 k (i 1))) :
    k1_pay1 xb wb j = mmOut X Wa i := by
  have hcast : shapeCast S5000x256 xb shapeCasts_S5000x256_S5000x256 = xb := shapeCast_self xb _
  unfold k1_pay1
  simp only [hcast]
  exact blockProduct_entry 5000 50000 256 128 (φ₁ := .bf16) (φ₂ := .bf16) (ψ₁ := .f32) (ψ₂ := .f32) none none .single xb wb X Wa j i hx hw

variable (V : (c : Dev nD) → (b : Ref sig .tc) → Buf (Elt Ideal) ((c : Thread nD τ).loc b))

/-- Entry `x` of the left window's block at point `t` is the left array's entry on row `5000 t + x 0`, same column. -/
theorem leftBlock1 (c : Dev nD) (t : Fin cfg1.N) (x : S5000x256.Idx) (k : S50000x256.Idx)
    (hk0 : (k 0).val = 5000 * t.val + (x 0).val) (hk1 : (k 1).val = (x 1).val) :
    (iblk1 V c 0 t : Vec Ideal S5000x256 .f32) x = (V c main_v46 : S50000x256.Idx → Elt Ideal .f32) k := by
  obtain ⟨e00, e01, -, -, -, -⟩ := blockIndex1 t
  unfold iblk1
  rw [View.read_apply]
  show V c main_v46 _ = V c main_v46 _
  congr 1
  funext a; apply Fin.ext
  match a with
  | ⟨0, _⟩ => show win1_0.index t 0 * 5000 + 1 * (x 0).val = (k 0).val; rw [e00, hk0]; omega
  | ⟨1, _⟩ => show win1_0.index t 1 * 256 + 1 * (x 1).val = (k 1).val; rw [e01, hk1]; omega

/-- The right window's block at any point is the whole right array. -/
theorem rightBlock1 (c : Dev nD) (t : Fin cfg1.N) (x : S256x128.Idx) (k : S256x128.Idx)
    (hk0 : (k 0).val = (x 0).val) (hk1 : (k 1).val = (x 1).val) :
    (iblk1 V c 1 t : Vec Ideal S256x128 .f32) x = (V c main_arg6 : S256x128.Idx → Elt Ideal .f32) k := by
  obtain ⟨-, -, e10, e11, -, -⟩ := blockIndex1 t
  unfold iblk1
  rw [View.read_apply]
  show V c main_arg6 _ = V c main_arg6 _
  congr 1
  funext a; apply Fin.ext
  match a with
  | ⟨0, _⟩ => show win1_1.index t 0 * 256 + 1 * (x 0).val = (k 0).val; rw [e10, hk0]; omega
  | ⟨1, _⟩ => show win1_1.index t 1 * 128 + 1 * (x 1).val = (k 1).val; rw [e11, hk1]; omega

/-- What point `t` writes back is block `t` of the whole product: the body's one store fills the output block with
    its payload, and entry `j` of the payload is the whole product's entry at the place the output window puts `j`,
    row `5000 t + j 0` and column `j 1`. -/
theorem flushed1_eq (c : Dev nD) (t : Fin cfg1.N) :
    (dat1 V c).flushed 2 t = ((cfg1.win 2).blk t).view.read (Elt Ideal) (mmOut (V c main_v46) (V c main_arg6)) := by
  show (cfg1.win 2).cut (grid1.coords t) ((dat1 V c).after 2 t) = _
  rw [after1_2]
  unfold out1_2
  rw [View.canon_unit_zero zeroOffsets]
  simp only [View.ld_unit_zero (S := S5000x256) zeroOffsets, View.ld_unit_zero (S := S256x128) zeroOffsets]
  obtain ⟨-, -, -, -, e20, e21⟩ := blockIndex1 t
  funext j
  rw [View.read_apply]
  refine payload1_entry (iblk1 V c 0 t) (iblk1 V c 1 t) (V c main_v46) (V c main_arg6)
    ((cfg1.win 2).xinj (grid1.coords t) j) (((cfg1.win 2).blk t).view.emb j) ?_ ?_
  · intro k
    refine leftBlock1 V c t _ _ ?_ rfl
    show win1_2.index t 0 * 5000 + 1 * (j 0).val = 5000 * t.val + (j 0).val
    rw [e20]; omega
  · intro k
    refine rightBlock1 V c t _ _ rfl ?_
    show win1_2.index t 1 * 128 + 1 * (j 1).val = (j 1).val
    rw [e21]; omega

/-- An index of the output array is in point `t`'s block iff each coordinate is in the block's range on its axis. -/
theorem mem_block1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v47).slice (win1_2.rect t)).set ↔ _
  rw [View.set_slice_whole, Rect.mem_set_unit]
  exact Iff.rfl

/-- The ten blocks cover the output array: row `r` is in the block of point `r / 5000`. -/
theorem cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, by have hN : cfg1.N = 10 := N_1; omega⟩, rfl⟩
  obtain ⟨-, -, -, -, e20, e21⟩ := blockIndex1 t
  refine ⟨t, flush1_2 t, ?_⟩
  rw [mem_block1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After its ten write-backs the region's output array holds the product of the whole left array by the right
    array, as the region found them. -/
theorem region1 (c : Dev nD) : (dat1 V c).arrAt 2 cfg1.N = mmOut (V c main_v46) (V c main_arg6) :=
  (dat1 V c).arrAt_eq_of_cover 2 _ (fun t _ => flushed1_eq V c t) cover1

end Cert.KernelIdeal.Blocks

end
-- ==== Proof.Blocks2.lean ====
/-
  The third matrix-product region: from its ten row blocks to the whole product.

  The region multiplies a `50000×256` array by a `256×256` array, in ten grid points that walk down the rows, 5000 at a time.
  At point `t` the left window hands the body rows `5000 t … 5000 t + 4999` of the left array, the right window hands it
  the whole right array, and the body's one store leaves in the output block the product of the two.
  Entry `(r, c)` of that block product is the sum over `k` of (row `5000 t + r` of the left array at `k`) times (the
  right array at `(k, c)`), which is entry `(5000 t + r, c)` of the product of the whole arrays; and the output window
  writes the block back to exactly rows `5000 t … 5000 t + 4999`. So each write-back is a block of ONE function of the
  two input arrays, the whole product. Row `r` of the output lies in the block of point `r / 5000`, so the ten blocks
  cover the output array, which therefore ends holding the whole product.
-/
import proofs.«144654_j85323820302368_1_alg».proof.Proof.RegionSpec
import proofs.«144654_j85323820302368_1_alg».proof.Proof.BlocksLemma
import Idealize.ShloMosaic.Lib.Pipeline.Value

set_option maxRecDepth 16384

noncomputable section

namespace Cert.KernelIdeal.Blocks

open Cert.KernelIdeal Cert.KernelIdeal.Gen Cert.KernelIdeal.Spec
open Idealize.ShloMosaic Idealize.ShloMosaic.TcCoe Idealize.ShloMosaic.ValueIdx
open Idealize.ShloMosaic.Pipeline (Dat)

/-- The three index maps over the ten grid points: the left and the output window move down the rows with the point,
    block `t` at point `t`; the right window stays on its one block. -/
theorem blockIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- An entry of the body's block product is an entry of the whole product: entry `j` of the payload of a left block
    `xb` and a right block `wb` is entry `i` of the product of the arrays `X` and `Wa`, once row `j 0` of `xb` is row
    `i 0` of `X` and column `j 1` of `wb` is column `i 1` of `Wa`. Narrowing to bf16 is the identity on the extended
    reals. -/
theorem payload2_entry (xb : Vec Ideal S5000x256 .f32) (wb : Vec Ideal S256x256 .f32)
    (X : (⟨S50000x256, .f32⟩ : BufTy).Contents (Elt Ideal)) (Wa : (⟨S256x256, .f32⟩ : BufTy).Contents (Elt Ideal))
    (j : S5000x256.Idx) (i : S50000x256.Idx)
    (hx : ∀ k : Fin 256, xb (ix2 (j 0) k) = X (ix2 (i 0) k))
    (hw : ∀ k : Fin 256, wb (ix2 k (j 1)) = Wa (ix2 k (i 1))) :
    k2_pay1 xb wb j = mmHid X Wa i :=
  blockProduct_entry 5000 50000 256 256 (φ₁ := .bf16) (φ₂ := .bf16) (ψ₁ := .f32) (ψ₂ := .f32) none none .single xb wb X Wa j i hx hw

variable (V : (c : Dev nD) → (b : Ref sig .tc) → Buf (Elt Ideal) ((c : Thread nD τ).loc b))

/-- Entry `x` of the left window's block at point `t` is the left array's entry on row `5000 t + x 0`, same column. -/
theorem leftBlock2 (c : Dev nD) (t : Fin cfg2.N) (x : S5000x256.Idx) (k : S50000x256.Idx)
    (hk0 : (k 0).val = 5000 * t.val + (x 0).val) (hk1 : (k 1).val = (x 1).val) :
    (iblk2 V c 0 t : Vec Ideal S5000x256 .f32) x = (V c main_arg2 : S50000x256.Idx → Elt Ideal .f32) k := by
  obtain ⟨e00, e01, -, -, -, -⟩ := blockIndex2 t
  unfold iblk2
  rw [View.read_apply]
  show V c main_arg2 _ = V c main_arg2 _
  congr 1
  funext a; apply Fin.ext
  match a with
  | ⟨0, _⟩ => show win2_0.index t 0 * 5000 + 1 * (x 0).val = (k 0).val; rw [e00, hk0]; omega
  | ⟨1, _⟩ => show win2_0.index t 1 * 256 + 1 * (x 1).val = (k 1).val; rw [e01, hk1]; omega

/-- The right window's block at any point is the whole right array. -/
theorem rightBlock2 (c : Dev nD) (t : Fin cfg2.N) (x : S256x256.Idx) (k : S256x256.Idx)
    (hk0 : (k 0).val = (x 0).val) (hk1 : (k 1).val = (x 1).val) :
    (iblk2 V c 1 t : Vec Ideal S256x256 .f32) x = (V c main_arg4 : S256x256.Idx → Elt Ideal .f32) k := by
  obtain ⟨-, -, e10, e11, -, -⟩ := blockIndex2 t
  unfold iblk2
  rw [View.read_apply]
  show V c main_arg4 _ = V c main_arg4 _
  congr 1
  funext a; apply Fin.ext
  match a with
  | ⟨0, _⟩ => show win2_1.index t 0 * 256 + 1 * (x 0).val = (k 0).val; rw [e10, hk0]; omega
  | ⟨1, _⟩ => show win2_1.index t 1 * 256 + 1 * (x 1).val = (k 1).val; rw [e11, hk1]; omega

/-- What point `t` writes back is block `t` of the whole product: the body's one store fills the output block with
    its payload, and entry `j` of the payload is the whole product's entry at the place the output window puts `j`,
    row `5000 t + j 0` and column `j 1`. -/
theorem flushed2_eq (c : Dev nD) (t : Fin cfg2.N) :
    (dat2 V c).flushed 2 t = ((cfg2.win 2).blk t).view.read (Elt Ideal) (mmHid (V c main_arg2) (V c main_arg4)) := by
  show (cfg2.win 2).cut (grid2.coords t) ((dat2 V c).after 2 t) = _
  rw [after2_2]
  unfold out2_2
  rw [View.canon_unit_zero zeroOffsets]
  simp only [View.ld_unit_zero (S := S5000x256) zeroOffsets, View.ld_unit_zero (S := S256x256) zeroOffsets]
  obtain ⟨-, -, -, -, e20, e21⟩ := blockIndex2 t
  funext j
  rw [View.read_apply]
  refine payload2_entry (iblk2 V c 0 t) (iblk2 V c 1 t) (V c main_arg2) (V c main_arg4)
    ((cfg2.win 2).xinj (grid2.coords t) j) (((cfg2.win 2).blk t).view.emb j) ?_ ?_
  · intro k
    refine leftBlock2 V c t _ _ ?_ rfl
    show win2_2.index t 0 * 5000 + 1 * (j 0).val = 5000 * t.val + (j 0).val
    rw [e20]; omega
  · intro k
    refine rightBlock2 V c t _ _ rfl ?_
    show win2_2.index t 1 * 256 + 1 * (j 1).val = (j 1).val
    rw [e21]; omega

/-- An index of the output array is in point `t`'s block iff each coordinate is in the block's range on its axis. -/
theorem mem_block2 (t : Fin cfg2.N) (i : S50000x256.Idx) :
    i ∈ ((cfg2.win 2).blk t).view.set ↔ ∀ a : Fin 2, win2_2.index t a * S5000x256.size a ≤ (i a).val ∧ (i a).val < win2_2.index t a * S5000x256.size a + S5000x256.size a := by
  show i ∈ ((View.whole main_v93).slice (win2_2.rect t)).set ↔ _
  rw [View.set_slice_whole, Rect.mem_set_unit]
  exact Iff.rfl

/-- The ten blocks cover the output array: row `r` is in the block of point `r / 5000`. -/
theorem cover2 (i : S50000x256.Idx) :
    ∃ t : Fin cfg2.N, (cfg2.win 2).flush t = true ∧ i ∈ ((cfg2.win 2).blk t).view.set := by
  have hi0 : (i 0).val < 50000 := (i 0).isLt
  have hi1 : (i 1).val < 256 := (i 1).isLt
  obtain ⟨t, ht⟩ : ∃ t : Fin cfg2.N, t.val = (i 0).val / 5000 :=
    ⟨⟨(i 0).val / 5000, by have hN : cfg2.N = 10 := N_2; omega⟩, rfl⟩
  obtain ⟨-, -, -, -, e20, e21⟩ := blockIndex2 t
  refine ⟨t, flush2_2 t, ?_⟩
  rw [mem_block2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 256 ≤ (i 1).val ∧ (i 1).val < win2_2.index t (1 : Fin 2) * 256 + 256; omega

/-- After its ten write-backs the region's output array holds the product of the whole left array by the right
    array, as the region found them. -/
theorem region2 (c : Dev nD) : (dat2 V c).arrAt 2 cfg2.N = mmHid (V c main_arg2) (V c main_arg4) :=
  (dat2 V c).arrAt_eq_of_cover 2 _ (fun t _ => flushed2_eq V c t) cover2

end Cert.KernelIdeal.Blocks

end
-- ==== Proof.Blocks3.lean ====
/-
  The fourth matrix-product region: from its ten row blocks to the whole product.

  The region multiplies a `50000×256` array by a `256×128` array, in ten grid points that walk down the rows, 5000 at a time.
  At point `t` the left window hands the body rows `5000 t … 5000 t + 4999` of the left array, the right window hands it
  the whole right array, and the body's one store leaves in the output block the product of the two (the body first passes the left block through a shape cast to its own shape, which changes nothing).
  Entry `(r, c)` of that block product is the sum over `k` of (row `5000 t + r` of the left array at `k`) times (the
  right array at `(k, c)`), which is entry `(5000 t + r, c)` of the product of the whole arrays; and the output window
  writes the block back to exactly rows `5000 t … 5000 t + 4999`. So each write-back is a block of ONE function of the
  two input arrays, the whole product. Row `r` of the output lies in the block of point `r / 5000`, so the ten blocks
  cover the output array, which therefore ends holding the whole product.
-/
import proofs.«144654_j85323820302368_1_alg».proof.Proof.RegionSpec
import proofs.«144654_j85323820302368_1_alg».proof.Proof.BlocksLemma
import Idealize.ShloMosaic.Lib.Pipeline.Value

set_option maxRecDepth 16384

noncomputable section

namespace Cert.KernelIdeal.Blocks

open Cert.KernelIdeal Cert.KernelIdeal.Gen Cert.KernelIdeal.Spec
open Idealize.ShloMosaic Idealize.ShloMosaic.TcCoe Idealize.ShloMosaic.ValueIdx
open Idealize.ShloMosaic.Pipeline (Dat)

/-- The three index maps over the ten grid points: the left and the output window move down the rows with the point,
    block `t` at point `t`; the right window stays on its one block. -/
theorem blockIndex3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- An entry of the body's block product is an entry of the whole product: entry `j` of the payload of a left block
    `xb` and a right block `wb` is entry `i` of the product of the arrays `X` and `Wa`, once row `j 0` of `xb` is row
    `i 0` of `X` and column `j 1` of `wb` is column `i 1` of `Wa`. Narrowing to bf16 is the identity on the extended
    reals, and so is a shape cast to the same shape. -/
theorem payload3_entry (xb : Vec Ideal S5000x256 .f32) (wb : Vec Ideal S256x128 .f32)
    (X : (⟨S50000x256, .f32⟩ : BufTy).Contents (Elt Ideal)) (Wa : (⟨S256x128, .f32⟩ : BufTy).Contents (Elt Ideal))
    (j : S5000x128.Idx) (i : S50000x128.Idx)
    (hx : ∀ k : Fin 256, xb (ix2 (j 0) k) = X (ix2 (i 0) k))
    (hw : ∀ k : Fin 256, wb (ix2 k (j 1)) = Wa (ix2 k (i 1))) :
    k3_pay1 xb wb j = mmOut X Wa i := by
  have hcast : shapeCast S5000x256 xb shapeCasts_S5000x256_S5000x256 = xb := shapeCast_self xb _
  unfold k3_pay1
  simp only [hcast]
  exact blockProduct_entry 5000 50000 256 128 (φ₁ := .bf16) (φ₂ := .bf16) (ψ₁ := .f32) (ψ₂ := .f32) none none .single xb wb X Wa j i hx hw

variable (V : (c : Dev nD) → (b : Ref sig .tc) → Buf (Elt Ideal) ((c : Thread nD τ).loc b))

/-- Entry `x` of the left window's block at point `t` is the left array's entry on row `5000 t + x 0`, same column. -/
theorem leftBlock3 (c : Dev nD) (t : Fin cfg3.N) (x : S5000x256.Idx) (k : S50000x256.Idx)
    (hk0 : (k 0).val = 5000 * t.val + (x 0).val) (hk1 : (k 1).val = (x 1).val) :
    (iblk3 V c 0 t : Vec Ideal S5000x256 .f32) x = (V c main_v135 : S50000x256.Idx → Elt Ideal .f32) k := by
  obtain ⟨e00, e01, -, -, -, -⟩ := blockIndex3 t
  unfold iblk3
  rw [View.read_apply]
  show V c main_v135 _ = V c main_v135 _
  congr 1
  funext a; apply Fin.ext
  match a with
  | ⟨0, _⟩ => show win3_0.index t 0 * 5000 + 1 * (x 0).val = (k 0).val; rw [e00, hk0]; omega
  | ⟨1, _⟩ => show win3_0.index t 1 * 256 + 1 * (x 1).val = (k 1).val; rw [e01, hk1]; omega

/-- The right window's block at any point is the whole right array. -/
theorem rightBlock3 (c : Dev nD) (t : Fin cfg3.N) (x : S256x128.Idx) (k : S256x128.Idx)
    (hk0 : (k 0).val = (x 0).val) (hk1 : (k 1).val = (x 1).val) :
    (iblk3 V c 1 t : Vec Ideal S256x128 .f32) x = (V c main_arg6 : S256x128.Idx → Elt Ideal .f32) k := by
  obtain ⟨-, -, e10, e11, -, -⟩ := blockIndex3 t
  unfold iblk3
  rw [View.read_apply]
  show V c main_arg6 _ = V c main_arg6 _
  congr 1
  funext a; apply Fin.ext
  match a with
  | ⟨0, _⟩ => show win3_1.index t 0 * 256 + 1 * (x 0).val = (k 0).val; rw [e10, hk0]; omega
  | ⟨1, _⟩ => show win3_1.index t 1 * 128 + 1 * (x 1).val = (k 1).val; rw [e11, hk1]; omega

/-- What point `t` writes back is block `t` of the whole product: the body's one store fills the output block with
    its payload, and entry `j` of the payload is the whole product's entry at the place the output window puts `j`,
    row `5000 t + j 0` and column `j 1`. -/
theorem flushed3_eq (c : Dev nD) (t : Fin cfg3.N) :
    (dat3 V c).flushed 2 t = ((cfg3.win 2).blk t).view.read (Elt Ideal) (mmOut (V c main_v135) (V c main_arg6)) := by
  show (cfg3.win 2).cut (grid3.coords t) ((dat3 V c).after 2 t) = _
  rw [after3_2]
  unfold out3_2
  rw [View.canon_unit_zero zeroOffsets]
  simp only [View.ld_unit_zero (S := S5000x256) zeroOffsets, View.ld_unit_zero (S := S256x128) zeroOffsets]
  obtain ⟨-, -, -, -, e20, e21⟩ := blockIndex3 t
  funext j
  rw [View.read_apply]
  refine payload3_entry (iblk3 V c 0 t) (iblk3 V c 1 t) (V c main_v135) (V c main_arg6)
    ((cfg3.win 2).xinj (grid3.coords t) j) (((cfg3.win 2).blk t).view.emb j) ?_ ?_
  · intro k
    refine leftBlock3 V c t _ _ ?_ rfl
    show win3_2.index t 0 * 5000 + 1 * (j 0).val = 5000 * t.val + (j 0).val
    rw [e20]; omega
  · intro k
    refine rightBlock3 V c t _ _ rfl ?_
    show win3_2.index t 1 * 128 + 1 * (j 1).val = (j 1).val
    rw [e21]; omega

/-- An index of the output array is in point `t`'s block iff each coordinate is in the block's range on its axis. -/
theorem mem_block3 (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v136).slice (win3_2.rect t)).set ↔ _
  rw [View.set_slice_whole, Rect.mem_set_unit]
  exact Iff.rfl

/-- The ten blocks cover the output array: row `r` is in the block of point `r / 5000`. -/
theorem cover3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ : ∃ t : Fin cfg3.N, t.val = (i 0).val / 5000 :=
    ⟨⟨(i 0).val / 5000, by have hN : cfg3.N = 10 := N_3; omega⟩, rfl⟩
  obtain ⟨-, -, -, -, e20, e21⟩ := blockIndex3 t
  refine ⟨t, flush3_2 t, ?_⟩
  rw [mem_block3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- After its ten write-backs the region's output array holds the product of the whole left array by the right
    array, as the region found them. -/
theorem region3 (c : Dev nD) : (dat3 V c).arrAt 2 cfg3.N = mmOut (V c main_v135) (V c main_arg6) :=
  (dat3 V c).arrAt_eq_of_cover 2 _ (fun t _ => flushed3_eq V c t) cover3

end Cert.KernelIdeal.Blocks

end
-- ==== Proof.Blocks.lean ====
/-
  What the four matrix-product regions leave in their output arrays.

  Each region walks down its left array in ten blocks of 5000 rows and writes, block by block, the product of that block
  by the whole right array. An entry of a block product only reads one row of the block and one column of the right
  array, so it is the entry of the product of the WHOLE arrays on the same row and column; the ten blocks cover the
  output, so after the ten write-backs the output array is the whole product — the host's `dot_general` of the two
  arrays as the region found them. The four regions are proved one per module; here they are gathered.
-/
import proofs.«144654_j85323820302368_1_alg».proof.Proof.Blocks0
import proofs.«144654_j85323820302368_1_alg».proof.Proof.Blocks1
import proofs.«144654_j85323820302368_1_alg».proof.Proof.Blocks2
import proofs.«144654_j85323820302368_1_alg».proof.Proof.Blocks3

noncomputable section

namespace Cert.KernelIdeal.Blocks

open Cert.KernelIdeal Cert.KernelIdeal.Spec Idealize.ShloMosaic

/-- On the extended reals each of the four regions ends with its output array at the whole product of its two input
    arrays, whatever contents the region is entered with. -/
theorem regionVals : RegionVals Ideal where
  r0 := region0
  r1 := region1
  r2 := region2
  r3 := region3

end Cert.KernelIdeal.Blocks

end
-- ==== Proof.lean ====
/-
  The proof of `Cert.Claim`: a two-layer graph convolution on two graphs, its four dense products run as row-tiled
  matrix-unit kernels, against the same network written with whole matrix products.

  Both programs are the same straight line of host operations — degree counts by a scatter-add of ones, the
  symmetric normalisation `rsqrt(max(deg, 1))` gathered at both ends of every edge, the gathered rows scaled and
  scatter-added to their destination, the bias, a rectifier between the layers — except for the four products
  `x · W`: the reference applies the host's `dot_general` to the whole arrays, the kernel a pipelined region that
  multiplies ten blocks of 5000 rows by the whole right factor, its operands narrowed to bf16 and accumulated in f32
  from zero. On the extended reals a change of float format is the identity and the matrix-unit product into zero is the
  contraction sum, so each region leaves in its output array the whole product (`Blocks.regionVals`); a region is then
  one more line of the host program (`Fold`), the kernel's run ends with each result at the reference's own composed
  term of the arguments (`Fold.main_v88_eq`, `Fold.main_v177_eq` over `Named.run_named`), and the reference's run ends
  there by its generated read-back. No law of arithmetic is used beyond that; in particular nothing needs the inputs
  finite. The three frames are the generated ones; the idealization rewrote no operation, so `preserves` is `True`.
-/
import proofs.«144654_j85323820302368_1_alg».proof.Defs
import proofs.«144654_j85323820302368_1_alg».proof.Proof.KernelRun
import proofs.«144654_j85323820302368_1_alg».proof.Proof.Fold
import proofs.«144654_j85323820302368_1_alg».proof.Proof.Blocks
import proofs.«144654_j85323820302368_1_alg».proof.Proof.Gen.Kernel
import proofs.«144654_j85323820302368_1_alg».proof.Proof.Gen.Kernel.Frame
import proofs.«144654_j85323820302368_1_alg».proof.Proof.Gen.KernelIdeal
import proofs.«144654_j85323820302368_1_alg».proof.Proof.Gen.KernelIdeal.Frame
import proofs.«144654_j85323820302368_1_alg».proof.Proof.Gen.ReferenceIdeal
import proofs.«144654_j85323820302368_1_alg».proof.Proof.Gen.ReferenceIdeal.Run
import proofs.«144654_j85323820302368_1_alg».proof.Proof.Gen.Pre_finite_inputs
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- The idealized kernel runs and keeps its arguments: the generated frame. -/
theorem frame_kernelIdeal : Cert.frame_KernelIdeal := fun m ρ _ => Cert.KernelIdeal.Gen.frame m ρ

/-- The reference runs and keeps its arguments: its generated run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories agreeing on the arguments both programs end with each result at the reference's composed term of
    the arguments: the reference by its own run, the kernel because each region computes the whole product. -/
theorem algebraic : Cert.algebraic_KernelIdeal_ReferenceIdeal := by
  intro m ρ m' ρ' _ hagree
  refine ⟨fun c => Cert.ReferenceIdeal.Value.res_main_v88 (F := Ideal) m' c,
    fun c => Cert.ReferenceIdeal.Value.res_main_v177 (F := Ideal) m' c, ?_, Cert.ReferenceIdeal.Value.run (F := Ideal) m' ρ'⟩
  exact (θ_run Cert.KernelIdeal.defs _ _).mono
    (fun _ h c => ⟨(h c).1.trans (Cert.KernelIdeal.Fold.main_v88_eq m ρ Cert.KernelIdeal.Blocks.regionVals m' hagree c),
      (h c).2.1.trans (Cert.KernelIdeal.Fold.main_v177_eq m ρ Cert.KernelIdeal.Blocks.regionVals m' hagree c), (h c).2.2⟩)
    (Cert.KernelIdeal.Named.run_named (F := Ideal) m ρ)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
